-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S512x4096 : Shape := ⟨2, ![512, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S16384x4096 .f32) (main_arg1 : FVec F S512x4096 .f32) (main_arg2 : FVec F S512x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S512x4096 .f32 := Host.absf main_arg2
  let main_cst_2 : FVec F S_ .f32 := constant S_ .f32 0x7F800000#32
  let main_v10 : FVec F S512x4096 .f32 := broadcastInDim S512x4096 ![] bcast_S_S512x4096 main_cst_2
  let main_v11 : IVec S512x4096 1 := cmpf .olt main_v9 main_v10
  let main_c_3 : IVec S_ 1 := constantI S_ 1 1#1
  let main_v12 : IVec S_ 1 := (fun x v => Host.reduce IntOp.andi x v reducesTo_S512x4096_S_d0_1 h_S_) main_v11 main_c_3
  let main_v13 : IVec S_ 1 := andi main_v8 main_v12
  main_v13
-- ==== Kernel.lean ====
abbrev S16384x4096 : Shape := ⟨2, ![16384, 4096]⟩
abbrev S512x4096 : Shape := ⟨2, ![512, 4096]⟩
abbrev S16384x512 : Shape := ⟨2, ![16384, 512]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S512x4096, .f32⟩
  | .hbm, ⟨2, _⟩ => ⟨S512x4096, .f32⟩
  | .hbm, ⟨3, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_8 : BitVec 32 := 0#32
  let v23 : BitVec 1 := Scalar.cmpi .ne v22 c0_i32_8
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  h_S512x1024 : 0 < S512x1024.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  natLt_1_32 : 1 < 32
  dot_S1024x1024_S512x1024_S1024x512_1_1_0_0_n_n_wf : DotDims.WF S1024x1024 S512x1024 S1024x512 [1] [1] [0] [0] [] []
  hrank0 : 0 < grid0.rank
  k0_mult1_dvd : ∀ i : grid0.Coords, 128 ∣ (k0_mult1 i).toNat
  k0_off1_inb : ∀ i : grid0.Coords, ∀ a, (k0_off1 i) a + S512x1024.size a ≤ S512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .f32 = 32 ∨ (Rect.block (s := S512x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S512x4096.size a
  hwx0_2 : ∀ i : grid0.Coords, EltTy.bits .f32 = 32 ∨ (Rect.block (s := S512x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S512x4096 : Shape := ⟨2, ![512, 4096]⟩
abbrev S16384x512 : Shape := ⟨2, ![16384, 512]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S512x4096, .f32⟩
  | .hbm, ⟨2, _⟩ => ⟨S512x4096, .f32⟩
  | .hbm, ⟨3, _⟩ => ⟨S512x4096, .i1⟩
  | .hbm, ⟨4, _⟩ => ⟨S512x4096, .f32⟩
  | .hbm, ⟨5, _⟩ => ⟨S16384x512, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  dot_S16384x4096_S512x4096_S16384x512_1_1_0_0_n_n_wf : DotDims.WF S16384x4096 S512x4096 S16384x512 [1] [1] [0] [0] [] []

variable [Facts₀]

def dot_S16384x4096_S512x4096_S16384x512_1_1_0_0_n_n : DotDims S16384x4096 S512x4096 S16384x512 where
  lhsContracting := [1]
  rhsContracting := [1]
  lhsNonContracting := [0]
  rhsNonContracting := [0]
  lhsBatch := []
  rhsBatch := []
  wf := dot_S16384x4096_S512x4096_S16384x512_1_1_0_0_n_n_wf

class Facts : Prop extends Facts₀ where

variable [Facts]
-- ==== Proof.Pieces.lean ====
/-
  What the body leaves behind at a grid point, as values.

  A point (i, k) holds row block `i` of `x` restricted to column chunk `k` (a [1024, 1024] block), and the whole
  probability and sample arrays, of which the body reads column chunk `k` (columns 1024k … 1024k + 1023). Writing
  `step acc` for "the accumulator plus the chunk's product" (the second store's value), the accumulator scratch ends
  the point holding

    * `step 0` at the first chunk (k = 0): the body first stores zeros, reads them back, and adds;
    * `step acc` at every later chunk, `acc` being what the point before left;

  and at the last chunk (k = 3) the output block is a copy of that final accumulator.
-/
import proofs.«171260_j42030549959312_2_alg».proof.Proof.Gen.KernelIdeal.Frame
import Idealize.ShloMosaic.Lib.Pipeline.Value
import Idealize.ShloMosaic.Lib.Tactic

noncomputable section

namespace Cert.KernelIdeal.Chunk

open Cert.KernelIdeal Cert.KernelIdeal.Gen Idealize.ShloMosaic Idealize.ShloMosaic.TcCoe Idealize.SL.Sem

variable {F : FTy → Type} [FloatOps F]

theorem zero_offsets : (![0, 0] : Fin 2 → Nat) = fun _ => 0 := funext fun a => by fin_cases a <;> rfl

/-- Column chunk `k` of a [512, 4096] array, as the body loads it at point (i, k): all 512 rows, columns
    1024k … 1024k + 1023. -/
abbrev chunk (i : grid0.Coords) (a : Vec F S512x4096 .f32) : Vec F S512x1024 .f32 :=
  View.ld a (Rect.unit (s := S512x4096) (k0_off1 i) S512x1024.size (k0_off1_inb i))

/-- One accumulation step at point `i`: the accumulator plus the product of the `x` block with the binarized chunk. -/
abbrev step (i : grid0.Coords) (x0 : Vec F S1024x1024 .f32) (x1 : Vec F S512x4096 .f32) (x2 : Vec F S512x4096 .f32) (acc : Vec F S1024x512 .f32) : Vec F S1024x512 .f32 :=
  k0_pay2 (chunk i x1) (chunk i x2) x0 acc

/-- A later chunk that is not the last: the scratch ends at one step over what it held. -/
theorem scratch_mid (c : Dev nD) (i : grid0.Coords) (arg2 : Memref sig .tc .vmem S1024x1024 .f32) (harg2 : arg2.IsWhole) (arg3 : Memref sig .tc .vmem S512x4096 .f32) (harg3 : arg3.IsWhole) (arg4 : Memref sig .tc .vmem S512x4096 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : ¬cond0_1 i) (x0 : Vec F S1024x1024 .f32) (x1 : Vec F S512x4096 .f32) (x2 : Vec F S512x4096 .f32) (xs0 : Vec F S1024x512 .f32) :
    sout0_B_0 c i arg2 harg2 arg3 harg3 arg4 harg4 arg5 harg5 arg6 harg6 hc0 hc1 x0 x1 x2 xs0 = step i x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero zero_offsets]
  simp only [View.readAt_eq_ld, harg2.read_unread, harg3.read_unread, harg4.read_unread, harg6.read_unread,
    View.ld_unit_zero (S := S1024x512) zero_offsets, View.ld_unit_zero (S := S1024x1024) zero_offsets]

/-- The first chunk: the scratch ends at one step over the zeros the body has just stored. -/
theorem scratch_first (c : Dev nD) (i : grid0.Coords) (arg2 : Memref sig .tc .vmem S1024x1024 .f32) (harg2 : arg2.IsWhole) (arg3 : Memref sig .tc .vmem S512x4096 .f32) (harg3 : arg3.IsWhole) (arg4 : Memref sig .tc .vmem S512x4096 .f32) (harg4 : arg4.IsWhole) (arg5 : Memref sig .tc .vmem S1024x512 .f32) (harg5 : arg5.IsWhole) (arg6 : Memref sig .tc .vmem S1024x512 .f32) (harg6 : arg6.IsWhole) (hc0 : cond0_0 i) (hc1 : ¬cond0_1 i) (x0 : Vec F S1024x1024 .f32) (x1 : Vec F S512x4096 .f32) (x2 : Vec F S512x4096 .f32) :
    sout0_A_0 c i arg2 harg2 arg3 harg3 arg4 harg4 arg5 harg5 arg6 harg6 hc0 hc1 x0 x1 x2 = step i x0 x1 x2 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x512) zero_offsets, View.readCov_unit_zero (S := S1024x512) _ zero_offsets]
  simp only [View.readAt_eq_ld, harg2.read_unread, harg3.read_unread, harg4.read_unread,
    View.ld_unit_zero (S := S1024x1024) zero_offsets]
  rfl

/-- The last chunk: the scratch ends at one step over what it held, -/
theorem scratch_last (c : Dev nD) (i : grid0.Coords) (arg2 : Memref sig .tc .vmem S1024x1024 .f32) (harg2 : arg2.IsWhole) (arg3 : Memref sig .tc .vmem S512x4096 .f32) (harg3 : arg3.IsWhole) (arg4 : Memref sig .tc .vmem S512x4096 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i) (x0 : Vec F S1024x1024 .f32) (x1 : Vec F S512x4096 .f32) (x2 : Vec F S512x4096 .f32) (xs0 : Vec F S1024x512 .f32) :
    sout0_C_0 c i arg2 harg2 arg3 harg3 arg4 harg4 arg5 harg5 arg6 harg6 hc0 hc1 x0 x1 x2 xs0 = step i x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero zero_offsets]
  simp only [View.readAt_eq_ld, harg2.read_unread, harg3.read_unread, harg4.read_unread, harg6.read_unread,
    View.ld_unit_zero (S := S1024x512) zero_offsets, View.ld_unit_zero (S := S1024x1024) zero_offsets]
  rfl

/-- and the output block is a copy of it. -/
theorem out_last (c : Dev nD) (i : grid0.Coords) (arg2 : Memref sig .tc .vmem S1024x1024 .f32) (harg2 : arg2.IsWhole) (arg3 : Memref sig .tc .vmem S512x4096 .f32) (harg3 : arg3.IsWhole) (arg4 : Memref sig .tc .vmem S512x4096 .f32) (harg4 : arg4.IsWhole) (arg5 : Memref sig .tc .vmem S1024x512 .f32) (harg5 : arg5.IsWhole) (arg6 : Memref sig .tc .vmem S1024x512 .f32) (harg6 : arg6.IsWhole) (hc0 : ¬cond0_0 i) (hc1 : cond0_1 i) (x0 : Vec F S1024x1024 .f32) (x1 : Vec F S512x4096 .f32) (x2 : Vec F S512x4096 .f32) (xs0 : Vec F S1024x512 .f32) :
    out0_C_3 c i arg2 harg2 arg3 harg3 arg4 harg4 arg5 harg5 arg6 harg6 hc0 hc1 x0 x1 x2 xs0 = step i x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero zero_offsets, View.readCov_unit_zero (S := S1024x512) _ zero_offsets]
  simp only [View.readAt_eq_ld, harg2.read_unread, harg3.read_unread, harg4.read_unread, harg6.read_unread,
    View.ld_unit_zero (S := S1024x512) zero_offsets, View.ld_unit_zero (S := S1024x1024) zero_offsets]
  rfl

end Cert.KernelIdeal.Chunk

end
-- ==== Proof.ChunkSum.lean ====
/-
  Two facts about numbers, stated with no program in sight.

  * A sum over 4096 consecutive positions is the sum, over four consecutive chunks of 1024 positions, of the
    chunk sums: position `k` is position `k % 1024` of chunk `k / 1024`. This holds in any commutative monoid,
    so in particular over the extended reals, where no term need be finite.
  * The result both programs compute, written once: entry (b, o) is the sum over the 4096 input features `k` of
    `x(b, k)` times the binarized weight `[u(o, k) < w(o, k)]` (1 where the sample is below the probability, else 0).
    Matrices are read by natural-number coordinates (zero outside the matrix), so that the re-indexing of sums is
    arithmetic on naturals.
  * A one-bit integer widened to 32 bits without sign and then read as a SIGNED integer is the same number (0 or 1)
    as the bit read as an UNSIGNED integer: the widened word's top bit is clear.
-/
import Idealize.ShloMosaic.PureOps.Ideal
import Idealize.ShloMosaic.PureOps.Ideal.Laws
import Idealize.ShloMosaic.Lib.ValueIdx

noncomputable section

namespace Cert.ChunkSum

open Idealize.ShloMosaic Idealize.ShloMosaic.ValueIdx

/-- Four chunks of 1024 positions, summed chunk by chunk, are the 4096 positions summed at once. -/
theorem sum_chunks {β : Type*} [AddCommMonoid β] (f : ℕ → β) :
    ∑ s ∈ Finset.range 4, ∑ j : Fin 1024, f (1024 * s + j.val) = ∑ k : Fin 4096, f k.val := by
  rw [Finset.sum_range (fun s => ∑ j : Fin 1024, f (1024 * s + j.val))]
  rw [← Fintype.sum_prod_type' (fun (s : Fin 4) (j : Fin 1024) => f (1024 * s.val + j.val))]
  refine Fintype.sum_equiv (finProdFinEquiv (m := 4) (n := 1024)) _ _ (fun p => ?_)
  show f (1024 * p.1.val + p.2.val) = f (finProdFinEquiv p).val
  rw [finProdFinEquiv_apply_val, Nat.add_comm]

/-- A bit widened to a word and read signed is the bit read unsigned. -/
theorem toInt_setWidth_bit (b : BitVec 1) : (b.setWidth 32).toInt = (b.toNat : ℤ) := by
  revert b; decide

/-- At the ideal instance the signed conversion of a widened bit is the unsigned conversion of the bit: both are
    the real number 0 or 1. -/
theorem sitofp_widened_bit (b : BitVec 1) :
    FloatOps.sitofp (F := Ideal) .f32 (b.setWidth 32) = FloatOps.uitofp (F := Ideal) .f32 b := by
  show (((b.setWidth 32).toInt : ℝ) : EReal) = ((b.toNat : ℝ) : EReal)
  rw [toInt_setWidth_bit]
  norm_cast

/-! ## Matrices by natural coordinates, the binarized weight, the result -/

/-- Entry (r, k) of a matrix, and zero when (r, k) is outside it. -/
def at2 {n0 n1 : ℕ} (A : (⟨2, ![n0, n1]⟩ : Shape).Idx → Ideal .f32) (r k : ℕ) : Ideal .f32 :=
  if h : r < n0 ∧ k < n1 then A (ix2 ⟨r, h.1⟩ ⟨k, h.2⟩) else 0

/-- Reading a matrix at an index is reading it at the index's two coordinates. -/
theorem at2_of_coords {n0 n1 : ℕ} (A : (⟨2, ![n0, n1]⟩ : Shape).Idx → Ideal .f32) (y : (⟨2, ![n0, n1]⟩ : Shape).Idx)
    (r k : ℕ) (h0 : (y 0).val = r) (h1 : (y 1).val = k) : A y = at2 A r k := by
  subst h0 h1
  unfold at2
  rw [dif_pos ⟨idx2_lt0 y, idx2_lt1 y⟩]
  exact congrArg A (eq_ix2 y)

/-- The binarized weight: 1 where the sample `u` is strictly below the probability `w`, 0 elsewhere — the
    comparison's bit read as an unsigned integer. -/
def bin (u w : Ideal .f32) : Ideal .f32 :=
  FloatOps.uitofp (F := Ideal) .f32 (FloatOps.cmpf (F := Ideal) .olt u w)

/-- One term of the result's sum: feature `k` of input row `b` times the binarized weight of output `o` at `k`. -/
def term (X : (⟨2, ![16384, 4096]⟩ : Shape).Idx → Ideal .f32) (W U : (⟨2, ![512, 4096]⟩ : Shape).Idx → Ideal .f32)
    (b o k : ℕ) : Ideal .f32 :=
  at2 X b k * bin (at2 U o k) (at2 W o k)

/-- THE RESULT: `out(b, o) = Σ_k x(b, k) · [u(o, k) < w(o, k)]`. -/
def result (X : (⟨2, ![16384, 4096]⟩ : Shape).Idx → Ideal .f32) (W U : (⟨2, ![512, 4096]⟩ : Shape).Idx → Ideal .f32) :
    (⟨2, ![16384, 512]⟩ : Shape).Idx → Ideal .f32 :=
  fun i => ∑ k : Fin 4096, term X W U (i 0).val (i 1).val k.val

end Cert.ChunkSum

end
-- ==== Proof.Payload.lean ====
/-
  What one grid point adds to the accumulator, entry by entry, over the extended reals.

  The body's second store writes `acc + x_blk · bᵀ`, where `x_blk` is the point's [1024, 1024] block of `x`, and
  `b` the [512, 1024] matrix of zeros and ones `[u < w]` of the current 1024-column chunk of the sample `u` and the
  probability `w`. At the ideal instance the two roundings to bf16 are the identity and the matrix unit's product into
  a zero accumulator is the plain sum over the contracted axis, so entry (p, q) of what is stored is
  `acc(p, q) + Σ_j x_blk(p, j) · [u(q, j) < w(q, j)]`. The body's first store, at the first chunk only, writes zeros.
-/
import proofs.«171260_j42030549959312_2_alg».proof.Proof.Gen.KernelIdeal.Skeleton
import proofs.«171260_j42030549959312_2_alg».proof.Proof.ChunkSum
import Idealize.ShloMosaic.Lib.ValueIdx
import Idealize.ShloMosaic.Lib.Pipeline.Value
import Idealize.ShloMosaic.PureOps.Ideal.Laws

noncomputable section

namespace Cert.KernelIdeal.Chunk

open Cert.KernelIdeal Cert.KernelIdeal.Gen Idealize.ShloMosaic Idealize.ShloMosaic.ValueIdx Cert.ChunkSum

/-- The matrix unit's operand indices at output entry `i` and contracted position `k`: the left operand is read at
    (row of `i`, `k`), the right at (column of `i`, `k`) — both operands are contracted along their second axis. -/
theorem lhs_row (i : S1024x512.Idx) (k : dot_S1024x1024_S512x1024_S1024x512_1_1_0_0_n_n.contr.Idx) :
    (dot_S1024x1024_S512x1024_S1024x512_1_1_0_0_n_n.lhsIdx i k 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_col (i : S1024x512.Idx) (k : dot_S1024x1024_S512x1024_S1024x512_1_1_0_0_n_n.contr.Idx) :
    (dot_S1024x1024_S512x1024_S1024x512_1_1_0_0_n_n.lhsIdx i k 1).val = (k ⟨0, by decide⟩).val :=
  dot_S1024x1024_S512x1024_S1024x512_1_1_0_0_n_n.lhsIdx_val_of_single rfl i k
theorem rhs_row (i : S1024x512.Idx) (k : dot_S1024x1024_S512x1024_S1024x512_1_1_0_0_n_n.contr.Idx) :
    (dot_S1024x1024_S512x1024_S1024x512_1_1_0_0_n_n.rhsIdx i k 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_col (i : S1024x512.Idx) (k : dot_S1024x1024_S512x1024_S1024x512_1_1_0_0_n_n.contr.Idx) :
    (dot_S1024x1024_S512x1024_S1024x512_1_1_0_0_n_n.rhsIdx i k 1).val = (k ⟨0, by decide⟩).val :=
  dot_S1024x1024_S512x1024_S1024x512_1_1_0_0_n_n.rhsIdx_val_of_single rfl i k

/-- Entry (p, q) of the accumulate store's value: the accumulator's entry plus the chunk's inner product of row `p` of
    the `x` block with row `q` of the binarized weights. -/
theorem pay2_apply (v6 v8 : Vec Ideal S512x1024 .f32) (v9 : Vec Ideal S1024x1024 .f32) (v15 : Vec Ideal S1024x512 .f32)
    (p : Fin 1024) (q : Fin 512) :
    k0_pay2 (F := Ideal) v6 v8 v9 v15 (ix2 p q)
      = v15 (ix2 p q) + ∑ j : Fin 1024, v9 (ix2 p j) * bin (v8 (ix2 q j)) (v6 (ix2 q j)) := by
  unfold k0_pay2
  rw [shapeCast_self]
  show (v15 (ix2 p q) : Ideal .f32) + FloatOps.matmul (F := Ideal) dot_S1024x1024_S512x1024_S1024x512_1_1_0_0_n_n none (truncf (F := Ideal) FTy.bf16 (v9 : FVec Ideal S1024x1024 .f32) bitsLt_bf16_f32)
      (truncf (F := Ideal) FTy.bf16 (sitofp (F := Ideal) FTy.f32 (extui 32 (cmpf (F := Ideal) CmpFPredicate.olt (v8 : FVec Ideal S512x1024 .f32) v6) natLt_1_32)) bitsLt_bf16_f32)
      (constant (F := Ideal) S1024x512 FTy.f32 0x00000000#32) (ix2 p q) = _
  rw [Ideal.matmul_constant_zero_apply, ← Equiv.sum_comp (contrEquiv1 dot_S1024x1024_S512x1024_S1024x512_1_1_0_0_n_n 1024 rfl rfl).symm]
  refine congrArg (v15 (ix2 p q) + ·) (Finset.sum_congr rfl fun j _ => ?_)
  have hj := contrEquiv1_symm_val dot_S1024x1024_S512x1024_S1024x512_1_1_0_0_n_n 1024 rfl rfl j
  have el : dot_S1024x1024_S512x1024_S1024x512_1_1_0_0_n_n.lhsIdx (ix2 p q) ((contrEquiv1 dot_S1024x1024_S512x1024_S1024x512_1_1_0_0_n_n 1024 rfl rfl).symm j) = ix2 p j := funext fun a => Fin.ext (by
    match a with
    | ⟨0, _⟩ => exact lhs_row _ _
    | ⟨1, _⟩ => exact (lhs_col _ _).trans hj)
  have er : dot_S1024x1024_S512x1024_S1024x512_1_1_0_0_n_n.rhsIdx (ix2 p q) ((contrEquiv1 dot_S1024x1024_S512x1024_S1024x512_1_1_0_0_n_n 1024 rfl rfl).symm j) = ix2 q j := funext fun a => Fin.ext (by
    match a with
    | ⟨0, _⟩ => exact rhs_row _ _
    | ⟨1, _⟩ => exact (rhs_col _ _).trans hj)
  rw [el, er]
  show v9 (ix2 p j) * FloatOps.sitofp (F := Ideal) FTy.f32 ((FloatOps.cmpf (F := Ideal) CmpFPredicate.olt (v8 (ix2 q j)) (v6 (ix2 q j))).setWidth 32) = _
  rw [Cert.ChunkSum.sitofp_widened_bit]
  rfl

/-- The reset store's value is zero at every entry. -/
theorem pay1_apply (y : S1024x512.Idx) : k0_pay1 (F := Ideal) y = 0 := by
  unfold k0_pay1
  rw [shapeCast_self]
  show Ideal.ofBits .f32 0x00000000#32 = 0
  exact Ideal.ofBits_zero_f32

end Cert.KernelIdeal.Chunk

end
-- ==== Proof.Blocks.lean ====
/-
  Where a grid point's inputs sit in the argument arrays, and what one accumulation step adds, entry by entry.

  Point `t` of the 16 × 4 grid is (row block `t / 4`, column chunk `t % 4`). Its `x` block is rows
  `1024·(t/4) …` and columns `1024·(t%4) …` of `x`; the probability and sample windows hold their whole arrays, of
  which the body reads columns `1024·(t%4) …`. So one step adds to accumulator entry (p, q) the partial inner product

      Σ_{j < 1024}  x(1024·(t/4) + p, 1024·(t%4) + j) · [u(q, 1024·(t%4) + j) < w(q, 1024·(t%4) + j)].
-/
import proofs.«171260_j42030549959312_2_alg».proof.Proof.Pieces
import proofs.«171260_j42030549959312_2_alg».proof.Proof.Payload
import proofs.«171260_j42030549959312_2_alg».proof.Proof.ChunkSum
import Idealize.ShloMosaic.Lib.ValueIdx
import Idealize.ShloMosaic.Lib.Pipeline.Value

noncomputable section

namespace Cert.KernelIdeal.Chunk

open Cert.KernelIdeal Cert.KernelIdeal.Gen Idealize.ShloMosaic Idealize.ShloMosaic.TcCoe Idealize.SL.Sem
open Idealize.ShloMosaic.ValueIdx Cert.ChunkSum

variable (m : (ℓ : Loc nD τ sig) → Buf (Elt Ideal) ℓ)

/-- Point `t` is (row block `t / 4`, column chunk `t % 4`). -/
theorem point_coords : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

/-- The windows' block indices at point `t`: the `x` window follows both grid axes, the probability and sample windows
    stay at their one block, the output window follows the row block. -/
theorem block_indices : ∀ t : Fin cfg0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0 :=
  (by decide +kernel : ∀ t : Fin grid0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0)

/-- Entry (p, j) of the point's `x` block is `x(1024·(t/4) + p, 1024·(t%4) + j)`. -/
theorem xblk_apply (c : Dev nD) (t : Fin cfg0.N) (p j : Fin 1024) :
    (iblk m c 0 t : Vec Ideal S1024x1024 .f32) (ix2 p j)
      = at2 (m ((c : Thread nD τ).loc main_arg0)) (1024 * (t.val / 4) + p.val) (1024 * (t.val % 4) + j.val) := by
  obtain ⟨e0, e1, -⟩ := block_indices t
  unfold iblk
  rw [View.read_apply]
  show V m c main_arg0 (((cfg0.win 0).blk t).view.emb (ix2 p j)) = _
  unfold V
  refine at2_of_coords _ _ _ _ ?_ ?_
  · show win0_0.index t (0 : Fin 2) * 1024 + 1 * p.val = _
    rw [e0]; omega
  · show win0_0.index t (1 : Fin 2) * 1024 + 1 * j.val = _
    rw [e1]; omega

/-- Entry (r, j) of the chunk the body reads of the probability window is `w(r, 1024·(t%4) + j)`. -/
theorem wchunk_apply (c : Dev nD) (t : Fin cfg0.N) (r : Fin 512) (j : Fin 1024) :
    chunk (grid0.coords t) (iblk m c 1 t : Vec Ideal S512x4096 .f32) (ix2 r j)
      = at2 (m ((c : Thread nD τ).loc main_arg1)) r.val (1024 * (t.val % 4) + j.val) := by
  obtain ⟨-, -, e2, e3, -⟩ := block_indices t
  have hk := (point_coords t).2
  show (iblk m c 1 t : Vec Ideal S512x4096 .f32)
      ((Rect.unit (s := S512x4096) (k0_off1 (grid0.coords t)) S512x1024.size (k0_off1_inb (grid0.coords t))).idx (ix2 r j)) = _
  unfold iblk
  rw [View.read_apply]
  show V m c main_arg1 (((cfg0.win 1).blk t).view.emb
      ((Rect.unit (s := S512x4096) (k0_off1 (grid0.coords t)) S512x1024.size (k0_off1_inb (grid0.coords t))).idx (ix2 r j))) = _
  unfold V
  refine at2_of_coords _ _ _ _ ?_ ?_
  · show win0_1.index t (0 : Fin 2) * 512 + 1 * (k0_off1 (grid0.coords t) 0 + 1 * r.val) = _
    rw [e2, k0_off1_eq]
    show 0 * 512 + 1 * (0 + 1 * r.val) = r.val
    omega
  · show win0_1.index t (1 : Fin 2) * 4096 + 1 * (k0_off1 (grid0.coords t) 1 + 1 * j.val) = _
    rw [e3, k0_off1_eq]
    show 0 * 4096 + 1 * (1024 * (grid0.coords t 1).val + 1 * j.val) = _
    rw [hk]; omega

/-- Entry (r, j) of the chunk the body reads of the sample window is `u(r, 1024·(t%4) + j)`. -/
theorem uchunk_apply (c : Dev nD) (t : Fin cfg0.N) (r : Fin 512) (j : Fin 1024) :
    chunk (grid0.coords t) (iblk m c 2 t : Vec Ideal S512x4096 .f32) (ix2 r j)
      = at2 (m ((c : Thread nD τ).loc main_arg2)) r.val (1024 * (t.val % 4) + j.val) := by
  obtain ⟨-, -, -, -, e4, e5, -⟩ := block_indices t
  have hk := (point_coords t).2
  show (iblk m c 2 t : Vec Ideal S512x4096 .f32)
      ((Rect.unit (s := S512x4096) (k0_off1 (grid0.coords t)) S512x1024.size (k0_off1_inb (grid0.coords t))).idx (ix2 r j)) = _
  unfold iblk
  rw [View.read_apply]
  show V m c main_arg2 (((cfg0.win 2).blk t).view.emb
      ((Rect.unit (s := S512x4096) (k0_off1 (grid0.coords t)) S512x1024.size (k0_off1_inb (grid0.coords t))).idx (ix2 r j))) = _
  unfold V
  refine at2_of_coords _ _ _ _ ?_ ?_
  · show win0_2.index t (0 : Fin 2) * 512 + 1 * (k0_off1 (grid0.coords t) 0 + 1 * r.val) = _
    rw [e4, k0_off1_eq]
    show 0 * 512 + 1 * (0 + 1 * r.val) = r.val
    omega
  · show win0_2.index t (1 : Fin 2) * 4096 + 1 * (k0_off1 (grid0.coords t) 1 + 1 * j.val) = _
    rw [e5, k0_off1_eq]
    show 0 * 4096 + 1 * (1024 * (grid0.coords t 1).val + 1 * j.val) = _
    rw [hk]; omega

/-- What point `n` adds to accumulator entry `y`: the partial inner product over the point's column chunk. (A function of
    every natural `n`; only the grid's 64 points are ever used.) -/
def addend (c : Dev nD) (n : ℕ) (y : S1024x512.Idx) : Ideal .f32 :=
  ∑ j : Fin 1024, term (m ((c : Thread nD τ).loc main_arg0)) (m ((c : Thread nD τ).loc main_arg1)) (m ((c : Thread nD τ).loc main_arg2))
    (1024 * (n / 4) + (y 0).val) (y 1).val (1024 * (n % 4) + j.val)

/-- ONE STEP at point `t`, at an entry: the accumulator's entry plus the point's addend. -/
theorem step_apply (c : Dev nD) (t : Fin cfg0.N) (acc : Vec Ideal S1024x512 .f32) (y : S1024x512.Idx) :
    step (grid0.coords t) (iblk m c 0 t : Vec Ideal S1024x1024 .f32) (iblk m c 1 t : Vec Ideal S512x4096 .f32)
        (iblk m c 2 t : Vec Ideal S512x4096 .f32) acc y
      = acc y + addend m c t.val y := by
  obtain ⟨p, q, rfl⟩ : ∃ (p : Fin 1024) (q : Fin 512), y = ix2 p q := ⟨y 0, y 1, eq_ix2 y⟩
  refine (pay2_apply (chunk (grid0.coords t) (iblk m c 1 t : Vec Ideal S512x4096 .f32))
    (chunk (grid0.coords t) (iblk m c 2 t : Vec Ideal S512x4096 .f32)) (iblk m c 0 t : Vec Ideal S1024x1024 .f32) acc p q).trans ?_
  refine congrArg (acc (ix2 p q) + ·) (Finset.sum_congr rfl fun j _ => ?_)
  show _ = at2 (m ((c : Thread nD τ).loc main_arg0)) (1024 * (t.val / 4) + p.val) (1024 * (t.val % 4) + j.val)
    * bin (at2 (m ((c : Thread nD τ).loc main_arg2)) q.val (1024 * (t.val % 4) + j.val)) (at2 (m ((c : Thread nD τ).loc main_arg1)) q.val (1024 * (t.val % 4) + j.val))
  exact congrArg₂ (· * ·) (xblk_apply m c t p j) (congrArg₂ bin (uchunk_apply m c t q j) (wchunk_apply m c t q j))

end Cert.KernelIdeal.Chunk

end
-- ==== Proof.KernelValue.lean ====
/-
  The kernel's result array, as one function of the three argument arrays.

  A row block's four grid points 4q, 4q+1, 4q+2, 4q+3 run the fold `acc ↦ acc + addend` from zero, so after the
  fourth the accumulator's entry (p, o) is `0 + Σ_{s<4} Σ_{j<1024} term(1024q + p, o, 1024s + j)`, which is the sum of
  the 4096 terms `term(1024q + p, o, k)` (regrouping a finite sum in a commutative monoid: no term need be finite).
  That fourth point copies the accumulator to the output block and is the only one of the four whose block is written
  back; the sixteen written blocks tile the [16384, 512] result, block `q` being rows 1024q … 1024q + 1023.
-/
import proofs.«171260_j42030549959312_2_alg».proof.Proof.Blocks
import proofs.«171260_j42030549959312_2_alg».proof.Proof.Gen.KernelIdeal.Value
import Idealize.ShloMosaic.Lib.Pipeline.Value

noncomputable section

namespace Cert.KernelIdeal.Chunk

open Cert.KernelIdeal Cert.KernelIdeal.Gen Idealize.ShloMosaic Idealize.ShloMosaic.TcCoe Idealize.SL.Sem
open Idealize.ShloMosaic.ValueIdx Cert.ChunkSum
open Idealize.ShloMosaic.Pipeline (Dat)

variable (m : (ℓ : Loc nD τ sig) → Buf (Elt Ideal) ℓ) (ρ : Dev nD → PrngReg)

/-! ## The accumulator over a row block's four points -/

/-- At a row block's first point the scratch ends at zero plus the point's addend, whatever it held before. -/
theorem first_apply (c : Dev nD) (b : ℕ) (hb : b < cfg0.N) (h0 : b % 4 = 0) (acc : Vec Ideal S1024x512 .f32)
    (y : S1024x512.Idx) : Value.scAt0_0 m c b hb acc y = 0 + addend m c b y := by
  have h3 : ¬b % 4 = 3 := by omega
  unfold Value.scAt0_0
  rw [dif_pos h0, dif_neg h3]
  refine (congrFun (scratch_first (F := Ideal) c (grid0.coords (⟨b, hb⟩ : Fin cfg0.N)) (ms0_0 (⟨b, hb⟩ : Fin cfg0.N)) (hs0_0 (⟨b, hb⟩ : Fin cfg0.N)) (ms0_1 (⟨b, hb⟩ : Fin cfg0.N)) (hs0_1 (⟨b, hb⟩ : Fin cfg0.N)) (ms0_2 (⟨b, hb⟩ : Fin cfg0.N)) (hs0_2 (⟨b, hb⟩ : Fin cfg0.N)) (ms0_3 (⟨b, hb⟩ : Fin cfg0.N)) (hs0_3 (⟨b, hb⟩ : Fin cfg0.N)) scM0_0 (Memref.isWhole_whole _)
    ((hcond0_0 (⟨b, hb⟩ : Fin cfg0.N)).mpr h0) (fun h => h3 ((hcond0_1 (⟨b, hb⟩ : Fin cfg0.N)).mp h))
    (iblk m c 0 (⟨b, hb⟩ : Fin cfg0.N)) (iblk m c 1 (⟨b, hb⟩ : Fin cfg0.N)) (iblk m c 2 (⟨b, hb⟩ : Fin cfg0.N))) y).trans ?_
  refine (step_apply m c (⟨b, hb⟩ : Fin cfg0.N) (k0_pay1 (F := Ideal)) y).trans ?_
  rw [pay1_apply]

/-- At each later point of the row block the scratch ends at what it held plus the point's addend. -/
theorem later_apply (c : Dev nD) (n : ℕ) (hn : n < cfg0.N) (h0 : ¬n % 4 = 0) (acc : Vec Ideal S1024x512 .f32)
    (y : S1024x512.Idx) : Value.scAt0_0 m c n hn acc y = acc y + addend m c n y := by
  unfold Value.scAt0_0
  rw [dif_neg h0]
  by_cases h3 : n % 4 = 3
  · rw [dif_pos h3]
    exact (congrFun (scratch_last (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _)
      (fun h => h0 ((hcond0_0 (⟨n, hn⟩ : Fin cfg0.N)).mp h)) ((hcond0_1 (⟨n, hn⟩ : Fin cfg0.N)).mpr h3)
      (iblk m c 0 (⟨n, hn⟩ : Fin cfg0.N)) (iblk m c 1 (⟨n, hn⟩ : Fin cfg0.N)) (iblk m c 2 (⟨n, hn⟩ : Fin cfg0.N)) acc) y).trans (step_apply m c (⟨n, hn⟩ : Fin cfg0.N) acc y)
  · rw [dif_neg h3]
    exact (congrFun (scratch_mid (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _)
      (fun h => h0 ((hcond0_0 (⟨n, hn⟩ : Fin cfg0.N)).mp h)) (fun h => h3 ((hcond0_1 (⟨n, hn⟩ : Fin cfg0.N)).mp h))
      (iblk m c 0 (⟨n, hn⟩ : Fin cfg0.N)) (iblk m c 1 (⟨n, hn⟩ : Fin cfg0.N)) (iblk m c 2 (⟨n, hn⟩ : Fin cfg0.N)) acc) y).trans (step_apply m c (⟨n, hn⟩ : Fin cfg0.N) acc y)

/-- AFTER A ROW BLOCK'S LAST POINT the accumulator's entry (p, o) is the full 4096-term sum for row
    `1024·(t/4) + p` and output `o`. -/
theorem scratch_full (c : Dev nD) (t : Fin cfg0.N) (h3 : t.val % 4 = 3) (y : S1024x512.Idx) :
    (outsAt0 m c t.val t.isLt).2 y
      = ∑ k : Fin 4096, term (m ((c : Thread nD τ).loc main_arg0)) (m ((c : Thread nD τ).loc main_arg1)) (m ((c : Thread nD τ).loc main_arg2)) (1024 * (t.val / 4) + (y 0).val) (y 1).val k.val := by
  have hN : cfg0.N = 64 := N_0
  have ht := t.isLt
  rw [Cert.KernelIdeal.Value.soutsAt0_0_eq m c t]
  refine (Pipeline.accAt_add_apply (fun n h => Value.scAt0_0 m c n h (VS0_0.read (Elt Ideal) VS0_0.junk)) (Value.scAt0_0 m c)
    (fun _ => (0 : Ideal .f32)) (addend m c) (4 * (t.val / 4)) 3
    (fun h i => first_apply m c _ h (by omega) _ i)
    (fun n h acc i hlt hle => later_apply m c n h (by omega) acc i)
    (t.val % 4) (by omega) _ y).trans ?_
  rw [h3]
  show (0 : Ideal .f32) + ∑ s ∈ Finset.range 4, addend m c (4 * (t.val / 4) + s) y = _
  rw [zero_add, ← sum_chunks (fun k => term (m ((c : Thread nD τ).loc main_arg0)) (m ((c : Thread nD τ).loc main_arg1)) (m ((c : Thread nD τ).loc main_arg2)) (1024 * (t.val / 4) + (y 0).val) (y 1).val k)]
  refine Finset.sum_congr rfl fun s hs => ?_
  have hs4 : s < 4 := Finset.mem_range.mp hs
  unfold addend
  rw [show (4 * (t.val / 4) + s) / 4 = t.val / 4 by omega, show (4 * (t.val / 4) + s) % 4 = s by omega]

/-- A pair whose two components are known, and equal, has equal projections. -/
theorem fst_eq_snd_of_eq {α : Type*} (x : α × α) (a b : α) (e : x = (a, b)) (h : a = b) : x.1 = x.2 := by
  subst e; exact h

/-- At a row block's last point the output block is a copy of the accumulator. -/
theorem out_full (c : Dev nD) (t : Fin cfg0.N) (h3 : t.val % 4 = 3) :
    (outsAt0 m c t.val t.isLt).1 = (outsAt0 m c t.val t.isLt).2 := by
  have h0 : ¬t.val % 4 = 0 := by omega
  refine fst_eq_snd_of_eq _ _ _ (outsAt0_C m c t h0 h3) ?_
  exact (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2).trans
    (scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t) (outsAt0 m c (t.val - 1) (Nat.lt_of_le_of_lt (Nat.sub_le _ _) t.isLt)).2).symm

/-! ## The result array -/

/-- What the result array ends holding: the result function of the three argument arrays as launched. -/
abbrev resultOf (c : Dev nD) : Buf (Elt Ideal) ((c : Thread nD τ).loc main_v0) :=
  result (m ((c : Thread nD τ).loc main_arg0)) (m ((c : Thread nD τ).loc main_arg1)) (m ((c : Thread nD τ).loc main_arg2))

/-- What a writing point writes back is its block of the result function. -/
theorem flushed_eq (c : Dev nD) (t : Fin cfg0.N) (hf : (cfg0.win 3).flush t = true) :
    (dats m 0 c).flushed 3 t = ((cfg0.win 3).blk t).view.read (Elt Ideal) (resultOf m c) := by
  have h3 : t.val % 4 = 3 := (flush0_3 t).mp hf
  obtain ⟨-, -, -, -, -, -, e6, e7⟩ := block_indices t
  rw [Cert.KernelIdeal.Value.flushed3 m c t, out_full m c t h3]
  funext y
  show (outsAt0 m c t.val t.isLt).2 y = resultOf m c (((cfg0.win 3).blk t).view.emb y)
  rw [scratch_full m c t h3 y]
  have a0 : ((((cfg0.win 3).blk t).view.emb y) 0).val = 1024 * (t.val / 4) + (y 0).val := by
    show win0_3.index t (0 : Fin 2) * 1024 + 1 * (y 0).val = _
    rw [e6]; omega
  have a1 : ((((cfg0.win 3).blk t).view.emb y) 1).val = (y 1).val := by
    show win0_3.index t (1 : Fin 2) * 512 + 1 * (y 1).val = _
    rw [e7]; omega
  show _ = ∑ k : Fin 4096, term (m ((c : Thread nD τ).loc main_arg0)) (m ((c : Thread nD τ).loc main_arg1)) (m ((c : Thread nD τ).loc main_arg2))
    ((((cfg0.win 3).blk t).view.emb y) 0).val ((((cfg0.win 3).blk t).view.emb y) 1).val k.val
  rw [a0, a1]

/-- An index of the result is in point `t`'s block iff each coordinate is in the block's range on its axis. -/
theorem mem_blk (t : Fin cfg0.N) (i : S16384x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v0).slice (win0_3.rect t)).set ↔ _
  rw [View.set_slice_whole, Rect.mem_set_unit]
  exact Iff.rfl

/-- Every entry of the result lies in the block some writing point writes back: row `r` in row block `r / 1024`,
    written at that block's last point. -/
theorem cover (i : S16384x512.Idx) :
    ∃ t : Fin cfg0.N, (cfg0.win 3).flush t = true ∧ i ∈ ((cfg0.win 3).blk t).view.set := by
  have hN : cfg0.N = 64 := N_0
  have hi0 : (i 0).val < 16384 := (i 0).isLt
  have hi1 : (i 1).val < 512 := (i 1).isLt
  have hlt : 4 * ((i 0).val / 1024) + 3 < cfg0.N := by rw [hN]; omega
  obtain ⟨-, -, -, -, -, -, e6, e7⟩ := block_indices ⟨4 * ((i 0).val / 1024) + 3, hlt⟩
  refine ⟨⟨4 * ((i 0).val / 1024) + 3, hlt⟩, (flush0_3 _).mpr (by show (4 * ((i 0).val / 1024) + 3) % 4 = 3; omega), ?_⟩
  rw [mem_blk]
  intro a
  match a with
  | ⟨0, _⟩ =>
    show win0_3.index ⟨4 * ((i 0).val / 1024) + 3, hlt⟩ (0 : Fin 2) * 1024 ≤ (i 0).val
      ∧ (i 0).val < win0_3.index ⟨4 * ((i 0).val / 1024) + 3, hlt⟩ (0 : Fin 2) * 1024 + 1024
    rw [e6]
    show (4 * ((i 0).val / 1024) + 3) / 4 * 1024 ≤ (i 0).val ∧ (i 0).val < (4 * ((i 0).val / 1024) + 3) / 4 * 1024 + 1024
    omega
  | ⟨1, _⟩ =>
    show win0_3.index ⟨4 * ((i 0).val / 1024) + 3, hlt⟩ (1 : Fin 2) * 512 ≤ (i 1).val
      ∧ (i 1).val < win0_3.index ⟨4 * ((i 0).val / 1024) + 3, hlt⟩ (1 : Fin 2) * 512 + 512
    rw [e7]
    omega

/-- The result array after the run is the result function of the arguments. -/
theorem final (c : Dev nD) : (dats m 0 c).arrAt 3 cfg0.N = resultOf m c :=
  (dats m 0 c).arrAt_eq_of_cover 3 (resultOf m c) (fun t hf => flushed_eq m c t hf) cover

/-- THE KERNEL'S RUN: every weakly fair execution terminates with the result array at the result function of the
    argument arrays, which end unchanged. -/
theorem run : θ_run defs (onTc (τ := τ) (main (F := Ideal))) ⟨m, fun _ => 0, ρ⟩ fun r => ∀ c : Dev nD,
      r.2.mem ((c : Thread nD τ).loc main_v0) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Chunk

end
-- ==== Proof.RefValue.lean ====
/-
  The reference computes the same function.

  The reference compares the sample with the probability entry by entry, converts the bit to 0 or 1, and contracts
  `x` with that matrix over the 4096 features in one product. Read at entry (b, o) over the extended reals this is
  `Σ_k x(b, k) · [u(o, k) < w(o, k)]`: the result function, term for term.
-/
import proofs.«171260_j42030549959312_2_alg».proof.Proof.Gen.ReferenceIdeal.Read
import proofs.«171260_j42030549959312_2_alg».proof.Proof.ChunkSum

noncomputable section

namespace Cert.ReferenceIdeal.RefValue

open Cert.ReferenceIdeal Cert.ReferenceIdeal.Gen Idealize.ShloMosaic Idealize.ShloMosaic.ValueIdx Cert.ChunkSum

/-- The reference's product, as a function of its three arguments, is the result function. -/
theorem ref_eq (x0 : (⟨S16384x4096, .f32⟩ : BufTy).Contents (Elt Ideal)) (x1 x2 : (⟨S512x4096, .f32⟩ : BufTy).Contents (Elt Ideal)) :
    Read.val_main_v2 (F := Ideal) x0 x1 x2 = result x0 x1 x2 := by
  funext i
  rw [Read.val_main_v2_apply]
  unfold result
  refine Finset.sum_congr rfl fun k _ => ?_
  rw [Read.val_main_v1_apply, Read.val_main_v0_apply]
  show x0 (Read.lidx_main_v2 i k) * bin (x2 (Read.ridx_main_v2 i k)) (x1 (Read.ridx_main_v2 i k))
    = at2 x0 (i 0).val k.val * bin (at2 x2 (i 1).val k.val) (at2 x1 (i 1).val k.val)
  exact congrArg₂ (· * ·) (at2_of_coords x0 (Read.lidx_main_v2 i k) (i 0).val k.val rfl rfl)
    (congrArg₂ bin (at2_of_coords x2 (Read.ridx_main_v2 i k) (i 1).val k.val rfl rfl)
      (at2_of_coords x1 (Read.ridx_main_v2 i k) (i 1).val k.val rfl rfl))

end Cert.ReferenceIdeal.RefValue

end
-- ==== Proof.lean ====
/-
  A binarized linear layer: `out = x · Bᵀ` with `B = [u < w]` the matrix of zeros and ones that is 1 where the sample
  `u` lies strictly below the probability `w` (x : [16384, 4096]; w, u : [512, 4096]; out : [16384, 512]).

  The kernel walks a 16 × 4 grid: for each block of 1024 rows of `x` it visits the four 1024-column chunks of the 4096
  features in order, keeps a [1024, 512] accumulator that it zeroes at the first chunk and to which every chunk adds
  its partial product, and copies the accumulator to the output block at the fourth chunk. The reference forms `B` and
  contracts over all 4096 features at once.

  Over the extended reals, where the roundings to bf16 are the identity and a matrix product is the plain sum of
  products, the kernel's entry (b, o) is `0 + Σ_{s<4} Σ_{j<1024} x(b, 1024s + j)·B(o, 1024s + j)` and the reference's is
  `Σ_{k<4096} x(b, k)·B(o, k)`. These agree by regrouping a finite sum, which needs only that addition on the
  extended reals is commutative and associative with neutral element zero — so no entry has to be finite and the
  precondition is never opened. The comparison's bit reaches the product by two routes (widened to 32 bits and read
  signed in the kernel, read unsigned in the reference): both give 0 or 1.

  Modules: ChunkSum (the regrouping law, the bit conversion, the result function), Payload (one accumulation step at
  an entry), Pieces (what each kind of grid point leaves in the accumulator and the output block), Blocks (where a
  point's inputs sit in the arguments), KernelValue (the accumulator after four chunks; the result array), RefValue
  (the reference is the same function).
-/
import proofs.«171260_j42030549959312_2_alg».proof.Defs
import proofs.«171260_j42030549959312_2_alg».proof.Proof.Gen.Kernel
import proofs.«171260_j42030549959312_2_alg».proof.Proof.Gen.Kernel.Skeleton
import proofs.«171260_j42030549959312_2_alg».proof.Proof.Gen.Kernel.Launch
import proofs.«171260_j42030549959312_2_alg».proof.Proof.Gen.Kernel.Points
import proofs.«171260_j42030549959312_2_alg».proof.Proof.Gen.Kernel.Frame
import proofs.«171260_j42030549959312_2_alg».proof.Proof.Gen.KernelIdeal
import proofs.«171260_j42030549959312_2_alg».proof.Proof.Gen.KernelIdeal.Skeleton
import proofs.«171260_j42030549959312_2_alg».proof.Proof.Gen.KernelIdeal.Launch
import proofs.«171260_j42030549959312_2_alg».proof.Proof.Gen.KernelIdeal.Points
import proofs.«171260_j42030549959312_2_alg».proof.Proof.Gen.KernelIdeal.Frame
import proofs.«171260_j42030549959312_2_alg».proof.Proof.Gen.KernelIdeal.Value
import proofs.«171260_j42030549959312_2_alg».proof.Proof.Gen.ReferenceIdeal
import proofs.«171260_j42030549959312_2_alg».proof.Proof.Gen.ReferenceIdeal.Run
import proofs.«171260_j42030549959312_2_alg».proof.Proof.Gen.ReferenceIdeal.Read
import proofs.«171260_j42030549959312_2_alg».proof.Proof.Gen.Pre_finite_inputs
import proofs.«171260_j42030549959312_2_alg».proof.Proof.KernelValue
import proofs.«171260_j42030549959312_2_alg».proof.Proof.RefValue
import Idealize.ShloMosaic.Adequacy
import Idealize.ShloMosaic.Init

noncomputable section

namespace Cert.Proof

open Idealize.ShloMosaic Idealize.SL.Sem

/-- The word-level kernel runs to the end without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs to the end and leaves its arguments as they were: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel: there is nothing to preserve. -/
theorem preserves : Cert.preserves_Kernel_KernelIdeal := trivial

/-- From memories that agree on the three arguments, both programs end with the result function of those arguments:
    the kernel by accumulating four chunk products per row block, the reference by one contraction. -/
theorem algebraic : Cert.algebraic_KernelIdeal_ReferenceIdeal := by
  intro m ρ m' ρ' _ hagree
  refine ⟨fun c => Cert.KernelIdeal.Chunk.resultOf m c, Cert.KernelIdeal.Chunk.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
